-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x16 : Shape := ⟨2, ![4096, 16]⟩
abbrev S16 : Shape := ⟨1, ![16]⟩
abbrev S_ : Shape := ⟨0, ![]⟩
abbrev S1x16 : Shape := ⟨2, ![1, 16]⟩
abbrev S4096 : Shape := ⟨1, ![4096]⟩
abbrev S4096x1 : Shape := ⟨2, ![4096, 1]⟩
abbrev S4096x65536 : Shape := ⟨2, ![4096, 65536]⟩
abbrev S1024x1 : Shape := ⟨2, ![1024, 1]⟩
abbrev S1024x2048 : Shape := ⟨2, ![1024, 2048]⟩

abbrev nBuf : Space → Nat
  | .hbm => 109
  | .vmem => 4
  | .smem => 0
  | _ => 0

abbrev bufTy : (tb : Table) → Fin (tcTables nBuf tb) → BufTy
  | .hbm, ⟨0, _⟩ => ⟨S4096x16, .i32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S16, .i1⟩
  | .hbm, ⟨15, _⟩ => ⟨S16, .i1⟩
  | .hbm, ⟨16, _⟩ => ⟨S_, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S16, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S16, .i32⟩
  | .hbm, ⟨54, _⟩ => ⟨S16, .i32⟩
  | .hbm, ⟨55, _⟩ => ⟨S_, .i32⟩
  | .hbm, ⟨56, _⟩ => ⟨S16, .i32⟩
  | .hbm, ⟨57, _⟩ => ⟨S16, .i1⟩
  | .hbm, ⟨58, _⟩ => ⟨S16, .i32⟩
  | .hbm, ⟨59, _⟩ => ⟨S_, .i32⟩
  | .hbm, ⟨60, _⟩ => ⟨S_, .i32⟩
  | .hbm, ⟨61, _⟩ => ⟨S16, .i32⟩
  | .hbm, ⟨62, _⟩ => ⟨S16, .i32⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S_, .i32⟩
  | .hbm, ⟨69, _⟩ => ⟨S16, .i32⟩
  | .hbm, ⟨70, _⟩ => ⟨S16, .i1⟩
  | .hbm, ⟨71, _⟩ => ⟨S16, .i32⟩
  | .hbm, ⟨72, _⟩ => ⟨S_, .i32⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S_, .i32⟩
  | .hbm, ⟨77, _⟩ => ⟨S16, .i32⟩
  | .hbm, ⟨78, _⟩ => ⟨S16, .i32⟩
  | .hbm, ⟨79, _⟩ => ⟨S16, .i32⟩
  | .hbm, ⟨80, _⟩ => ⟨S16, .i32⟩
  | .hbm, ⟨81, _⟩ => ⟨S_, .i32⟩
  | .hbm, ⟨82, _⟩ => ⟨S16, .i32⟩
  | .hbm, ⟨83, _⟩ => ⟨S16, .i1⟩
  | .hbm, ⟨84, _⟩ => ⟨S16, .i32⟩
  | .hbm, ⟨85, _⟩ => ⟨S_, .i32⟩
  | .hbm, ⟨86, _⟩ => ⟨S_, .i32⟩
  | .hbm, ⟨87, _⟩ => ⟨S16, .i32⟩
  | .hbm, ⟨88, _⟩ => ⟨S16, .i32⟩
  | .hbm, ⟨89, _⟩ => ⟨S_, .i32⟩
  | .hbm, ⟨90, _⟩ => ⟨S16, .i32⟩
  | .hbm, ⟨91, _⟩ => ⟨S16, .i32⟩
  | .hbm, ⟨92, _⟩ => ⟨S16, .i32⟩
  | .hbm, ⟨93, _⟩ => ⟨S16, .i32⟩
  | .hbm, ⟨94, _⟩ => ⟨S_, .i32⟩
  | .hbm, ⟨95, _⟩ => ⟨S16, .i32⟩
  | .hbm, ⟨96, _⟩ => ⟨S16, .i1⟩
  | .hbm, ⟨97, _⟩ => ⟨S16, .i32⟩
  | .hbm, ⟨98, _⟩ => ⟨S_, .i32⟩
  | .hbm, ⟨99, _⟩ => ⟨S_, .i32⟩
  | .hbm, ⟨100, _⟩ => ⟨S16, .i32⟩
  | .hbm, ⟨101, _⟩ => ⟨S16, .i32⟩
  | .hbm, ⟨102, _⟩ => ⟨S1x16, .i32⟩
  | .hbm, ⟨103, _⟩ => ⟨S4096x16, .i32⟩
  | .hbm, ⟨104, _⟩ => ⟨S4096x16, .i32⟩
  | .hbm, ⟨105, _⟩ => ⟨S_, .i32⟩
  | .hbm, ⟨106, _⟩ => ⟨S4096, .i32⟩
  | .hbm, ⟨107, _⟩ => ⟨S4096x1, .i32⟩
  | .hbm, ⟨108, _⟩ => ⟨S4096x65536, .f32⟩
  | .local _ .vmem, ⟨0, _⟩ => ⟨S1024x1, .i32⟩
  | .local _ .vmem, ⟨1, _⟩ => ⟨S1024x1, .i32⟩
  | .local _ .vmem, ⟨2, _⟩ => ⟨S1024x2048, .f32⟩
  | .local _ .vmem, ⟨3, _⟩ => ⟨S1024x2048, .f32⟩
  | _, _ => ⟨S4096x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_c_5 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c_6 : Ref sig .tc := ⟨.hbm, 21, rfl⟩
abbrev main_v11 : Ref sig .tc := ⟨.hbm, 22, rfl⟩
abbrev main_v12 : Ref sig .tc := ⟨.hbm, 23, rfl⟩
abbrev main_c_7 : Ref sig .tc := ⟨.hbm, 24, rfl⟩
abbrev main_v13 : Ref sig .tc := ⟨.hbm, 25, rfl⟩
abbrev main_v14 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_v17 : Ref sig .tc := ⟨.hbm, 35, rfl⟩
abbrev main_v18 : Ref sig .tc := ⟨.hbm, 36, rfl⟩
abbrev main_c_11 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_v24 : Ref sig .tc := ⟨.hbm, 46, rfl⟩
abbrev main_c_12 : Ref sig .tc := ⟨.hbm, 47, rfl⟩
abbrev main_v25 : Ref sig .tc := ⟨.hbm, 48, rfl⟩
abbrev main_v26 : Ref sig .tc := ⟨.hbm, 49, rfl⟩
abbrev main_c_13 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_v31 : Ref sig .tc := ⟨.hbm, 58, rfl⟩
abbrev main_v32 : Ref sig .tc := ⟨.hbm, 59, rfl⟩
abbrev main_c_14 : Ref sig .tc := ⟨.hbm, 60, rfl⟩
abbrev main_v33 : Ref sig .tc := ⟨.hbm, 61, rfl⟩
abbrev main_v34 : Ref sig .tc := ⟨.hbm, 62, rfl⟩
abbrev main_c_15 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_v39 : Ref sig .tc := ⟨.hbm, 71, rfl⟩
abbrev main_v40 : Ref sig .tc := ⟨.hbm, 72, rfl⟩
abbrev main_c_16 : Ref sig .tc := ⟨.hbm, 73, rfl⟩
abbrev main_v41 : Ref sig .tc := ⟨.hbm, 74, rfl⟩
abbrev main_v42 : Ref sig .tc := ⟨.hbm, 75, rfl⟩
abbrev main_c_17 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call5_c : Ref sig .tc := ⟨.hbm, 81, rfl⟩
abbrev main_call5_v0 : Ref sig .tc := ⟨.hbm, 82, rfl⟩
abbrev main_call5_v1 : Ref sig .tc := ⟨.hbm, 83, rfl⟩
abbrev main_v47 : Ref sig .tc := ⟨.hbm, 84, rfl⟩
abbrev main_v48 : Ref sig .tc := ⟨.hbm, 85, rfl⟩
abbrev main_c_18 : Ref sig .tc := ⟨.hbm, 86, rfl⟩
abbrev main_v49 : Ref sig .tc := ⟨.hbm, 87, rfl⟩
abbrev main_v50 : Ref sig .tc := ⟨.hbm, 88, rfl⟩
abbrev main_c_19 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call6_c : Ref sig .tc := ⟨.hbm, 94, rfl⟩
abbrev main_call6_v0 : Ref sig .tc := ⟨.hbm, 95, rfl⟩
abbrev main_call6_v1 : Ref sig .tc := ⟨.hbm, 96, rfl⟩
abbrev main_v55 : Ref sig .tc := ⟨.hbm, 97, rfl⟩
abbrev main_v56 : Ref sig .tc := ⟨.hbm, 98, rfl⟩
abbrev main_c_20 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_21 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  h_S_ : 0 < S_.numel
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x2048_d1_w32 : S1024x2048.Iotas .tc 32 [1]
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .i32 = 32 ∨ (Rect.block (s := S4096x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x65536.size a
  hwx0_1 : ∀ i : grid0.Coords, EltTy.bits .f32 = 32 ∨ (Rect.block (s := S4096x65536) S1024x2048.size (cc0_transform_1 i) (hinb0_1 i)).WholeWords (EltTy.packing .f32)

variable [Facts₀]

abbrev win0_0 : Pipeline.Window sig grid0 :=
  Pipeline.Window.ofSpec (Memref.whole main_v63) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x16 : Shape := ⟨2, ![4096, 16]⟩
abbrev S16 : Shape := ⟨1, ![16]⟩
abbrev S_ : Shape := ⟨0, ![]⟩
abbrev S1x16 : Shape := ⟨2, ![1, 16]⟩
abbrev S4096 : Shape := ⟨1, ![4096]⟩
abbrev S4096x1 : Shape := ⟨2, ![4096, 1]⟩
abbrev S1x65536 : Shape := ⟨2, ![1, 65536]⟩
abbrev S4096x65536 : Shape := ⟨2, ![4096, 65536]⟩

abbrev nBuf : Space → Nat
  | .hbm => 113
  | .vmem => 0
  | .smem => 0
  | _ => 0

abbrev bufTy : (tb : Table) → Fin (tcTables nBuf tb) → BufTy
  | .hbm, ⟨0, _⟩ => ⟨S4096x16, .i32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S16, .i1⟩
  | .hbm, ⟨15, _⟩ => ⟨S16, .i1⟩
  | .hbm, ⟨16, _⟩ => ⟨S_, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S16, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S16, .i32⟩
  | .hbm, ⟨54, _⟩ => ⟨S16, .i32⟩
  | .hbm, ⟨55, _⟩ => ⟨S_, .i32⟩
  | .hbm, ⟨56, _⟩ => ⟨S16, .i32⟩
  | .hbm, ⟨57, _⟩ => ⟨S16, .i1⟩
  | .hbm, ⟨58, _⟩ => ⟨S16, .i32⟩
  | .hbm, ⟨59, _⟩ => ⟨S_, .i32⟩
  | .hbm, ⟨60, _⟩ => ⟨S_, .i32⟩
  | .hbm, ⟨61, _⟩ => ⟨S16, .i32⟩
  | .hbm, ⟨62, _⟩ => ⟨S16, .i32⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S_, .i32⟩
  | .hbm, ⟨69, _⟩ => ⟨S16, .i32⟩
  | .hbm, ⟨70, _⟩ => ⟨S16, .i1⟩
  | .hbm, ⟨71, _⟩ => ⟨S16, .i32⟩
  | .hbm, ⟨72, _⟩ => ⟨S_, .i32⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S_, .i32⟩
  | .hbm, ⟨77, _⟩ => ⟨S16, .i32⟩
  | .hbm, ⟨78, _⟩ => ⟨S16, .i32⟩
  | .hbm, ⟨79, _⟩ => ⟨S16, .i32⟩
  | .hbm, ⟨80, _⟩ => ⟨S16, .i32⟩
  | .hbm, ⟨81, _⟩ => ⟨S_, .i32⟩
  | .hbm, ⟨82, _⟩ => ⟨S16, .i32⟩
  | .hbm, ⟨83, _⟩ => ⟨S16, .i1⟩
  | .hbm, ⟨84, _⟩ => ⟨S16, .i32⟩
  | .hbm, ⟨85, _⟩ => ⟨S_, .i32⟩
  | .hbm, ⟨86, _⟩ => ⟨S_, .i32⟩
  | .hbm, ⟨87, _⟩ => ⟨S16, .i32⟩
  | .hbm, ⟨88, _⟩ => ⟨S16, .i32⟩
  | .hbm, ⟨89, _⟩ => ⟨S_, .i32⟩
  | .hbm, ⟨90, _⟩ => ⟨S16, .i32⟩
  | .hbm, ⟨91, _⟩ => ⟨S16, .i32⟩
  | .hbm, ⟨92, _⟩ => ⟨S16, .i32⟩
  | .hbm, ⟨93, _⟩ => ⟨S16, .i32⟩
  | .hbm, ⟨94, _⟩ => ⟨S_, .i32⟩
  | .hbm, ⟨95, _⟩ => ⟨S16, .i32⟩
  | .hbm, ⟨96, _⟩ => ⟨S16, .i1⟩
  | .hbm, ⟨97, _⟩ => ⟨S16, .i32⟩
  | .hbm, ⟨98, _⟩ => ⟨S_, .i32⟩
  | .hbm, ⟨99, _⟩ => ⟨S_, .i32⟩
  | .hbm, ⟨100, _⟩ => ⟨S16, .i32⟩
  | .hbm, ⟨101, _⟩ => ⟨S16, .i32⟩
  | .hbm, ⟨102, _⟩ => ⟨S1x16, .i32⟩
  | .hbm, ⟨103, _⟩ => ⟨S4096x16, .i32⟩
  | .hbm, ⟨104, _⟩ => ⟨S4096x16, .i32⟩
  | .hbm, ⟨105, _⟩ => ⟨S_, .i32⟩
  | .hbm, ⟨106, _⟩ => ⟨S4096, .i32⟩
  | .hbm, ⟨107, _⟩ => ⟨S4096x1, .i32⟩
  | .hbm, ⟨108, _⟩ => ⟨S1x65536, .i32⟩
  | .hbm, ⟨109, _⟩ => ⟨S4096x65536, .i32⟩
  | .hbm, ⟨110, _⟩ => ⟨S4096x65536, .i32⟩
  | .hbm, ⟨111, _⟩ => ⟨S4096x65536, .i1⟩
  | .hbm, ⟨112, _⟩ => ⟨S4096x65536, .f32⟩
  | _, _ => ⟨S4096x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_c_5 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c_6 : Ref sig .tc := ⟨.hbm, 21, rfl⟩
abbrev main_v11 : Ref sig .tc := ⟨.hbm, 22, rfl⟩
abbrev main_v12 : Ref sig .tc := ⟨.hbm, 23, rfl⟩
abbrev main_c_7 : Ref sig .tc := ⟨.hbm, 24, rfl⟩
abbrev main_v13 : Ref sig .tc := ⟨.hbm, 25, rfl⟩
abbrev main_v14 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_v17 : Ref sig .tc := ⟨.hbm, 35, rfl⟩
abbrev main_v18 : Ref sig .tc := ⟨.hbm, 36, rfl⟩
abbrev main_c_11 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_v24 : Ref sig .tc := ⟨.hbm, 46, rfl⟩
abbrev main_c_12 : Ref sig .tc := ⟨.hbm, 47, rfl⟩
abbrev main_v25 : Ref sig .tc := ⟨.hbm, 48, rfl⟩
abbrev main_v26 : Ref sig .tc := ⟨.hbm, 49, rfl⟩
abbrev main_c_13 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_v31 : Ref sig .tc := ⟨.hbm, 58, rfl⟩
abbrev main_v32 : Ref sig .tc := ⟨.hbm, 59, rfl⟩
abbrev main_c_14 : Ref sig .tc := ⟨.hbm, 60, rfl⟩
abbrev main_v33 : Ref sig .tc := ⟨.hbm, 61, rfl⟩
abbrev main_v34 : Ref sig .tc := ⟨.hbm, 62, rfl⟩
abbrev main_c_15 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_v39 : Ref sig .tc := ⟨.hbm, 71, rfl⟩
abbrev main_v40 : Ref sig .tc := ⟨.hbm, 72, rfl⟩
abbrev main_c_16 : Ref sig .tc := ⟨.hbm, 73, rfl⟩
abbrev main_v41 : Ref sig .tc := ⟨.hbm, 74, rfl⟩
abbrev main_v42 : Ref sig .tc := ⟨.hbm, 75, rfl⟩
abbrev main_c_17 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call5_c : Ref sig .tc := ⟨.hbm, 81, rfl⟩
abbrev main_call5_v0 : Ref sig .tc := ⟨.hbm, 82, rfl⟩
abbrev main_call5_v1 : Ref sig .tc := ⟨.hbm, 83, rfl⟩
abbrev main_v47 : Ref sig .tc := ⟨.hbm, 84, rfl⟩
abbrev main_v48 : Ref sig .tc := ⟨.hbm, 85, rfl⟩
abbrev main_c_18 : Ref sig .tc := ⟨.hbm, 86, rfl⟩
abbrev main_v49 : Ref sig .tc := ⟨.hbm, 87, rfl⟩
abbrev main_v50 : Ref sig .tc := ⟨.hbm, 88, rfl⟩
abbrev main_c_19 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call6_c : Ref sig .tc := ⟨.hbm, 94, rfl⟩
abbrev main_call6_v0 : Ref sig .tc := ⟨.hbm, 95, rfl⟩
abbrev main_call6_v1 : Ref sig .tc := ⟨.hbm, 96, rfl⟩
abbrev main_v55 : Ref sig .tc := ⟨.hbm, 97, rfl⟩
abbrev main_v56 : Ref sig .tc := ⟨.hbm, 98, rfl⟩
abbrev main_c_20 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_21 : Ref sig .tc := ⟨.hbm, 105, rfl⟩
abbrev main_v62 : Ref sig .tc := ⟨.hbm, 106, rfl⟩
abbrev main_call7_v0 : Ref sig .tc := ⟨.hbm, 107, rfl⟩
abbrev main_call7_v1 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_v63 : Ref sig .tc := ⟨.hbm, 112, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  h_S_ : 0 < S_.numel
  bcast_S4096_S4096x1_0 : S4096.BroadcastsInDim S4096x1 (![0] : Fin 1 → Fin S4096x1.rank)
  bcast_S4096x1_S4096x65536_0_1 : S4096x1.BroadcastsInDim S4096x65536 (![0, 1] : Fin 2 → Fin S4096x65536.rank)
  bcast_S1x65536_S4096x65536_0_1 : S1x65536.BroadcastsInDim S4096x65536 (![0, 1] : Fin 2 → Fin S4096x65536.rank)

variable [Facts₀]

class Facts : Prop extends Facts₀ where

variable [Facts]
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.LibSelectBit.lean ====
/-
  A comparison bit chosen as a float, and a comparison with a word moved by an offset.

  Three small facts for kernels that build a mask or a one-hot row tile by tile:
  * comparing a place `q` with a 32-bit word moved down by an offset is comparing the word with `offset + q`
    (subtracting a word is a bijection of the words modulo 2^32: no range is asked of anything);
  * the f32 word `0x3F800000` is the number one at the ideal reading;
  * `select` on a one-bit condition between the f32 words of one and zero is the condition read as a number, which is
    how a host `convert` of the same bit (an unsigned integer to float) reads.
-/
import Idealize.ShloMosaic.PureOps.Ideal
import Idealize.ShloMosaic.PureOps.Ideal.Laws

noncomputable section

namespace Cert.LibSelectBit

open Idealize.ShloMosaic

/-- Comparing a place `q` with a word `x` moved down by `off` is comparing `x` with `off + q`, for words of any width:
    subtraction of a word is a bijection of the words. -/
theorem cmpi_eq_moved {w : Nat} (x off q : BitVec w) :
    IntOp.cmpi .eq q (IntOp.subi x off) = IntOp.cmpi .eq x (off + q) := by
  unfold IntOp.cmpi IntOp.subi
  refine congrArg BitVec.ofBool ?_
  show (q == x - off) = (x == off + q)
  rw [Bool.eq_iff_iff, beq_iff_eq, beq_iff_eq]
  constructor
  · intro h
    rw [h, BitVec.add_comm, BitVec.sub_add_cancel]
  · intro h
    rw [h, BitVec.add_comm, BitVec.add_sub_cancel]

/-- The float word `0x3F800000` is the number one. -/
theorem ofBits_one_f32 : Ideal.ofBits .f32 0x3F800000#32 = 1 := by
  simp [Ideal.ofBits, Ideal.ieee, -EReal.coe_mul]; norm_num

/-- Choosing between the float words of one and zero on a bit is reading the bit as a number (the unsigned
    integer-to-float conversion of the bit). -/
theorem select_one_zero (b : BitVec 1) :
    Scalar.select b (Scalar.ofBits (F := Ideal) .f32 0x3F800000#32) (Scalar.ofBits (F := Ideal) .f32 0x00000000#32)
      = FloatOps.uitofp (F := Ideal) .f32 b := by
  rcases BitVec.eq_zero_or_eq_one b with h | h
  · subst h
    show Ideal.ofBits .f32 0x00000000#32 = (((0#1 : BitVec 1).toNat : ℝ) : EReal)
    rw [Ideal.ofBits_zero_f32]; simp
  · subst h
    show Ideal.ofBits .f32 0x3F800000#32 = (((1#1 : BitVec 1).toNat : ℝ) : EReal)
    rw [ofBits_one_f32]; simp

end Cert.LibSelectBit

end
-- ==== Proof.Spec.lean ====
/-
  One-hot rows of a table of labels, as extended reals.

  A row's label is a 32-bit word; the row of the table has 65536 columns, and its entry in column `n` is `1` when the
  label is the word of `n` and `0` otherwise: the comparison bit read as a number (`weight`, `table`).

  Two ways of computing an entry meet here. One compares the label with the column's word and converts the bit.
  The other works in a stretch of 2048 columns starting at `k · 2048`: it moves the label down by the stretch's start,
  compares the result with the column's place `q` inside the stretch, and chooses between the float words of one and
  zero. Subtracting a word is a bijection of the 32-bit words, so `q = label - k·2048` exactly when
  `label = k·2048 + q`, whatever the label (no range is asked of it: the arithmetic is modulo 2^32 on both sides), and
  the words of `k · 2048` and of `q` add up to the word of the column's number `k · 2048 + q`.
-/
import Idealize.ShloMosaic.PureOps.Ideal
import Idealize.ShloMosaic.PureOps.Ideal.Laws
import Idealize.ShloMosaic.Lib.ValueIdx
import proofs.«174391_j32890859552772_2_alg».proof.Proof.LibSelectBit

noncomputable section

namespace Cert.OneHot

open Idealize.ShloMosaic Idealize.ShloMosaic.ValueIdx

/-- The entry of a row with label `label` in the column whose word is `col`: the bit "the label is that word" as a
    number, `1` or `0`. -/
def weight (label col : BitVec 32) : EReal :=
  FloatOps.uitofp (F := Ideal) .f32 (IntOp.cmpi .eq label col)

/-- The whole table from the rows' labels: row `r`, column `n` holds `weight (flat r) (word of n)`. -/
def table (flat : Fin 4096 → BitVec 32) : (⟨2, ![4096, 65536]⟩ : Shape).Idx → EReal :=
  fun i => weight (flat ⟨(i 0).val, idx2_lt0 i⟩) (BitVec.ofNat 32 (i 1).val)

/-- An entry computed inside the stretch of columns starting at `k · 2048`, at place `q` of the stretch, is the table's
    entry in column `k · 2048 + q`. -/
theorem weight_in_stretch (label : BitVec 32) (k q : Nat) :
    Scalar.select (IntOp.cmpi .eq (BitVec.ofNat 32 q) (IntOp.subi label (Scalar.muli (BitVec.ofNat 32 k) 2048#32)))
        (Scalar.ofBits (F := Ideal) .f32 0x3F800000#32) (Scalar.ofBits (F := Ideal) .f32 0x00000000#32)
      = weight label (BitVec.ofNat 32 (k * 2048 + q)) := by
  rw [Cert.LibSelectBit.select_one_zero, Cert.LibSelectBit.cmpi_eq_moved]
  unfold weight
  have e : Scalar.muli (BitVec.ofNat 32 k) 2048#32 + BitVec.ofNat 32 q = BitVec.ofNat 32 (k * 2048 + q) := by
    show BitVec.ofNat 32 k * BitVec.ofNat 32 2048 + BitVec.ofNat 32 q = _
    rw [← BitVec.ofNat_mul, ← BitVec.ofNat_add]
  rw [e]

end Cert.OneHot

end
-- ==== Proof.KernelValue.lean ====
/-
  The kernel's result array, read off its frame run.

  The grid has 4 x 32 points. Point (a, k) receives rows a·1024 … a·1024 + 1023 of the column of labels (a [4096, 1]
  array the host part of the program has computed before the launch) and writes the block of rows a·1024 … and columns
  k·2048 … k·2048 + 2047 of the result. Inside the block, at row p and place q, the body moves the row's label down by
  k·2048, compares it with q and chooses between the float words of one and zero; by `Cert.OneHot.weight_in_stretch`
  that is the one-hot table's entry at row a·1024 + p, column k·2048 + q. The 128 blocks are disjoint and tile the
  [4096, 65536] array (the block holding entry (r, n) is the one of point (r / 1024, n / 2048)), so the array ends as the
  table of the labels, whatever the labels are.
-/
import proofs.«174391_j32890859552772_2_alg».proof.Proof.KernelIdealFrameP
import proofs.«174391_j32890859552772_2_alg».proof.Proof.Spec
import Idealize.ShloMosaic.Lib.Pipeline.Value
import Idealize.ShloMosaic.Lib.ValueIdx

noncomputable section

namespace Cert.KernelIdeal.OneHotValue

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## One entry of a block -/

/-- The body's stored value at row `p`, place `q` of the block of a point whose column coordinate is `i 1`: the table's
    entry for the label in row `p` of the labels' block, in column `(i 1) · 2048 + q`. -/
theorem pay_apply (i : grid0.Coords) (x0 : Vec Ideal S1024x1 .i32) (p : Fin 1024) (q : Fin 2048) :
    k0_pay1 (F := Ideal) i x0 (ix2 p q)
      = Cert.OneHot.weight (x0 (ix2 p (0 : Fin 1))) (BitVec.ofNat 32 ((i 1).val * 2048 + q.val)) := by
  unfold k0_pay1
  dsimp only
  show Scalar.select (IntOp.cmpi .eq (iota .tc S1024x2048 32 [1] Gen.iota_S1024x2048_d1_w32 (ix2 p q))
        (broadcastTo S1024x2048 (subi (shapeCast S1024x1 x0 Gen.shapeCasts_S1024x1_S1024x1)
          (broadcast S1024x1 (Scalar.muli (BitVec.ofNat 32 (i 1).val) 2048#32))) Gen.broadcasts_S1024x1_S1024x2048 (ix2 p q)))
      (Scalar.ofBits (F := Ideal) .f32 0x3F800000#32) (Scalar.ofBits (F := Ideal) .f32 0x00000000#32) = _
  have e1 : iota .tc S1024x2048 32 [1] Gen.iota_S1024x2048_d1_w32 (ix2 p q) = BitVec.ofNat 32 q.val :=
    iota_single_apply .tc S1024x2048 32 1 Gen.iota_S1024x2048_d1_w32 (ix2 p q)
  have e2 : broadcastTo S1024x2048 (subi (shapeCast S1024x1 x0 Gen.shapeCasts_S1024x1_S1024x1)
          (broadcast S1024x1 (Scalar.muli (BitVec.ofNat 32 (i 1).val) 2048#32))) Gen.broadcasts_S1024x1_S1024x2048 (ix2 p q)
        = IntOp.subi (x0 (ix2 p (0 : Fin 1))) (Scalar.muli (BitVec.ofNat 32 (i 1).val) 2048#32) := by
    refine (broadcastTo_apply _ Gen.broadcasts_S1024x1_S1024x2048 (ix2 p q) (ix2 p (0 : Fin 1)) (fun a => ?_)).trans ?_
    · match a with
      | ⟨0, _⟩ => show p.val = if (1024 : Nat) = 1 then 0 else p.val; rw [if_neg (by decide)]
      | ⟨1, _⟩ => show (0 : Nat) = if (1 : Nat) = 1 then 0 else q.val; rw [if_pos rfl]
    · show IntOp.subi (shapeCast S1024x1 x0 Gen.shapeCasts_S1024x1_S1024x1 (ix2 p (0 : Fin 1))) _ = _
      rw [shapeCast_self]
      rfl
  rw [e1, e2]
  exact Cert.OneHot.weight_in_stretch _ _ _

/-! ## The blocks' places, decided over the 128 points -/

theorem hz : (![0, 0] : Fin 2 → Nat) = fun _ => 0 := funext fun a => by fin_cases a <;> rfl

/-- The labels' block moves with the result block's row coordinate and stays in the one column; the result block's
    column coordinate is the point's second grid coordinate. -/
theorem idx_facts : ∀ t : Fin cfg0.N, win0_0.index t (0 : Fin 2) = win0_1.index t (0 : Fin 2)
    ∧ win0_0.index t (1 : Fin 2) = 0
    ∧ win0_1.index t (1 : Fin 2) = ((grid0.coords t) 1).val :=
  (by decide +kernel : ∀ t : Fin grid0.N, win0_0.index t (0 : Fin 2) = win0_1.index t (0 : Fin 2)
    ∧ win0_0.index t (1 : Fin 2) = 0
    ∧ win0_1.index t (1 : Fin 2) = ((grid0.coords t) 1).val)

/-- Every block of the 4 x 32 tiling is some point's. -/
theorem idx_onto : ∀ (q0 : Fin 4) (q1 : Fin 32), ∃ t : Fin cfg0.N, win0_1.index t = ![q0.val, q1.val] :=
  (by decide +kernel : ∀ (q0 : Fin 4) (q1 : Fin 32), ∃ t : Fin grid0.N, win0_1.index t = ![q0.val, q1.val])

/-! ## What a point writes back -/

/-- The rows' labels as the launch finds them: the one column of the [4096, 1] array the host part has computed. -/
def labels (c : Dev nD) : Fin 4096 → BitVec 32 :=
  fun r => (V m c main_v63 : S4096x1.Idx → BitVec 32) (ix2 r (0 : Fin 1))

/-- Point `t` writes back its block of the one-hot table of the labels. -/
theorem flushed_eq (c : Dev nD) (t : Fin cfg0.N) :
    (dats m 0 c).flushed 1 t = ((cfg0.win 1).blk t).view.read (Elt Ideal) (Cert.OneHot.table (labels m c)) := by
  show (cfg0.win 1).cut (grid0.coords t) ((dats m 0 c).after 1 t) = _
  rw [after0_1]
  unfold out0_1
  rw [View.canon_unit_zero hz]
  simp only [View.ld_unit_zero (S := S1024x1) hz]
  obtain ⟨e0, e1, e2⟩ := idx_facts t
  funext j
  obtain ⟨p, q, rfl⟩ : ∃ (p : Fin 1024) (q : Fin 2048), j = ix2 p q := ⟨j 0, j 1, eq_ix2 j⟩
  show k0_pay1 (F := Ideal) (grid0.coords t) (iblk m c 0 t) (ix2 p q)
      = Cert.OneHot.table (labels m c) (((cfg0.win 1).blk t).view.emb (ix2 p q))
  refine (pay_apply (grid0.coords t) (iblk m c 0 t) p q).trans ?_
  unfold Cert.OneHot.table labels
  dsimp only
  refine congrArg₂ Cert.OneHot.weight ?_ (congrArg (BitVec.ofNat 32) ?_)
  · show V m c main_v63 (((cfg0.win 0).blk t).view.emb (ix2 p (0 : Fin 1))) = V m c main_v63 (ix2 _ (0 : Fin 1))
    refine congrArg (V m c main_v63) (funext fun a => Fin.ext ?_)
    match a with
    | ⟨0, _⟩ => show win0_0.index t (0 : Fin 2) * 1024 + 1 * p.val = win0_1.index t (0 : Fin 2) * 1024 + 1 * p.val; omega
    | ⟨1, _⟩ => show win0_0.index t (1 : Fin 2) * 1 + 1 * 0 = 0; omega
  · show ((grid0.coords t) 1).val * 2048 + q.val = win0_1.index t (1 : Fin 2) * 2048 + 1 * q.val
    omega

/-! ## The blocks tile the array -/

/-- An index of the array is in point `t`'s block iff each coordinate is in the block's range on its axis. -/
theorem mem_blk (t : Fin cfg0.N) (i : S4096x65536.Idx) :
    i ∈ ((cfg0.win 1).blk t).view.set ↔ ∀ a : Fin 2, win0_1.index t a * S1024x2048.size a ≤ (i a).val
      ∧ (i a).val < win0_1.index t a * S1024x2048.size a + S1024x2048.size a := by
  show i ∈ ((View.whole main_v64).slice (win0_1.rect t)).set ↔ _
  rw [View.set_slice_whole, Rect.mem_set_unit]
  exact Iff.rfl

/-- Entry (r, n) lies in the block of the point whose block coordinates are (r / 1024, n / 2048). -/
theorem cover (i : S4096x65536.Idx) :
    ∃ t : Fin cfg0.N, (cfg0.win 1).flush t = true ∧ i ∈ ((cfg0.win 1).blk t).view.set := by
  have hi0 : (i 0).val < 4096 := (i 0).isLt
  have hi1 : (i 1).val < 65536 := (i 1).isLt
  obtain ⟨t, ht⟩ := idx_onto ⟨(i 0).val / 1024, by omega⟩ ⟨(i 1).val / 2048, by omega⟩
  have q0 : win0_1.index t (0 : Fin 2) = (i 0).val / 1024 := congrFun ht 0
  have q1 : win0_1.index t (1 : Fin 2) = (i 1).val / 2048 := congrFun ht 1
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 2048 ≤ (i 1).val ∧ (i 1).val < win0_1.index t (1 : Fin 2) * 2048 + 2048
    omega

/-- So the result array ends as the one-hot table of the labels. -/
theorem final (c : Dev nD) : (dats m 0 c).arrAt 1 cfg0.N = Cert.OneHot.table (labels m c) :=
  (dats m 0 c).arrAt_eq_of_cover 1 (Cert.OneHot.table (labels m c)) (fun t _ => flushed_eq m c t) cover

/-! ## The run, read -/

/-- After the frame run the result array is what the points' write-backs left. -/
theorem post_result (r : PUnit × MemSt nD τ sig (Elt Ideal)) (h : Pipeline.FramePost cfgs (dats m) 0 (V m) r) (c : Dev nD) :
    r.2.mem ((c : Thread nD τ).loc main_v64) = (dats m 0 c).arrAt 1 cfg0.N :=
  (h c).1 1

/-- After the frame run the argument array is as launched: no window stages it and no host line writes it. -/
theorem kept_arg (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Every weakly fair execution of the program ends with the result array at the one-hot table of the labels and the
    argument unchanged. -/
theorem run : θ_run defs (onTc (τ := τ) (main (F := Ideal))) ⟨m, fun _ => 0, ρ⟩ fun r => ∀ c : Dev nD,
      r.2.mem ((c : Thread nD τ).loc main_v64) = Cert.OneHot.table (labels m c)
      ∧ r.2.mem ((c : Thread nD τ).loc main_arg0) = m ((c : Thread nD τ).loc main_arg0) :=
  (θ_run defs _ _).mono (fun r h c => ⟨(post_result m r h c).trans (final m c), kept_arg m r h c⟩) (run_main m ρ)

end Cert.KernelIdeal.OneHotValue

end
-- ==== Proof.KernelHost.lean ====
/-
  The labels the launch finds.

  Before the launch the program's host part computes, from the [4096, 16] argument, one 32-bit label per row: the sum
  over the row's 16 entries of entry times weight, modulo 2^32, the weights a fixed vector of 16 words (built by
  repeated squaring from the word 2; it is never opened here). The reference program computes its labels by the very
  same operations in the very same order, so the column the launch finds is, operation for operation, the reference's
  own vector of labels stood up as a [4096, 1] column. The weights and the sum stay folded inside the reference's
  stage `val_main_v62`: both sides carry them as one function of the argument.
-/
import proofs.«174391_j32890859552772_2_alg».proof.Proof.KernelIdealFrameP
import proofs.«174391_j32890859552772_2_alg».proof.Proof.RefReadP
import proofs.«174391_j32890859552772_2_alg».proof.Proof.LibTyped
import proofs.«174391_j32890859552772_2_alg».proof.Proof.LibTypedLit
import Idealize.ShloMosaic.Lib.StableHlo.Run
import Idealize.ShloMosaic.Lib.Pipeline.Value
import Idealize.ShloMosaic.Lib.ValueIdx

noncomputable section

namespace Cert.KernelIdeal.OneHotHost

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx

variable {F : FTy → Type} [FloatOps F]

set_option maxRecDepth 8192 in
set_option maxHeartbeats 44800000 in
/-- The [4096, 1] array the launch stages its first window from is the reference's vector of labels, reshaped to a
    column: the host lines before the launch, read back one after the other, are the reference's own (the values
    carried into and out of the called functions' buffers pass through unchanged). -/
theorem column_eq (m : (ℓ : Loc nD τ sig) → Buf (Elt F) ℓ) (c : Dev nD) :
    (V m c main_v63 : S4096x1.Idx → BitVec 32)
      = shapeCast S4096x1 (Cert.ReferenceIdeal.ReadP.val_main_v62 (F := F) (m ((c : Thread nD τ).loc main_arg0)))
          Gen.shapeCasts_S4096_S4096x1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [Cert.LibTyped.ofBuf_toBuf, Cert.LibTyped.toBuf_ofBuf]
  repeat rw [Cert.LibTypedLit.ofBuf_of]
  repeat rw [Cert.LibTypedLit.toBuf_of]
  rfl

/-- Row `r` of that column is entry `r` of the reference's vector of labels: a reshape keeps the row-major place. -/
theorem column_apply (m : (ℓ : Loc nD τ sig) → Buf (Elt F) ℓ) (c : Dev nD) (r : Fin 4096) :
    (V m c main_v63 : S4096x1.Idx → BitVec 32) (ix2 r (0 : Fin 1))
      = Cert.ReferenceIdeal.ReadP.val_main_v62 (F := F) (m ((c : Thread nD τ).loc main_arg0)) (ix1 r) := by
  rw [column_eq]
  refine shapeCast_apply _ Gen.shapeCasts_S4096_S4096x1 (ix2 r (0 : Fin 1)) (ix1 r) ?_
  rw [Shape.rowMajor_val_one, Shape.rowMajor_val_two]
  show r.val = r.val * 1 + 0
  omega

end Cert.KernelIdeal.OneHotHost

end
-- ==== Proof.RefValue.lean ====
/-
  The reference's result, index by index.

  The reference broadcasts its vector of labels along the 65536 columns, compares it with the columns' numbers (an iota
  along the column axis, as 32-bit words) and converts the comparison bit to a float: entry (r, n) is the bit
  "label r is the word of n" as a number. That is the one-hot table of its labels.
-/
import proofs.«174391_j32890859552772_2_alg».proof.Proof.RefReadP
import proofs.«174391_j32890859552772_2_alg».proof.Proof.Spec
import Idealize.ShloMosaic.Lib.ValueIdx

noncomputable section

namespace Cert.ReferenceIdeal.OneHotRef

open Cert.ReferenceIdeal Cert.ReferenceIdeal.Gen Cert.ReferenceIdeal.ReadP
open Idealize.ShloMosaic Idealize.ShloMosaic.TcCoe Idealize.SL.Sem
open Idealize.ShloMosaic.ValueIdx

/-- The reference's labels: its sum stage, entry by entry. -/
def labels (x0 : (⟨S4096x16, .i32⟩ : BufTy).Contents (Elt Ideal)) : Fin 4096 → BitVec 32 :=
  fun r => val_main_v62 (F := Ideal) x0 (ix1 r)

/-- The reference's last stage is the one-hot table of its labels. -/
theorem result_eq (x0 : (⟨S4096x16, .i32⟩ : BufTy).Contents (Elt Ideal)) :
    val_main_v63 (F := Ideal) x0 = Cert.OneHot.table (labels x0) := by
  funext i
  have hrow : idx_main_call7_v0 (idx_main_call7_v2 i) = ix1 (⟨(i 0).val, idx2_lt0 i⟩ : Fin 4096) :=
    funext fun a => Fin.ext (by match a with | ⟨0, _⟩ => rfl)
  rw [val_main_v63_apply, val_main_call7_v4_apply, val_main_call7_v2_apply, val_main_call7_v0_apply,
    val_main_call7_v3_apply, val_main_call7_v1_apply, hrow]
  rfl

end Cert.ReferenceIdeal.OneHotRef

end
-- ==== Proof.lean ====
/-
  One-hot rows: a tiled kernel against a whole-array comparison, equal entry by entry for every input.

  Both programs first turn each row of the [4096, 16] integer argument into one 32-bit label — the sum over the row of
  entry times weight modulo 2^32, with one fixed vector of 16 weights — by the same host operations in the same order
  (`Cert.KernelIdeal.OneHotHost.column_eq`: the column the kernel's launch finds is the reference's vector of labels,
  reshaped). From the labels the reference builds the [4096, 65536] table whose entry (r, n) is the bit "label r is the
  word of n" read as a number (`Cert.ReferenceIdeal.OneHotRef.result_eq`). The kernel tiles the table in 4 x 32 blocks
  of 1024 rows and 2048 columns; in the block with column coordinate k it moves each label down by k·2048, compares it
  with the column's place q inside the block, and chooses between the float words of one and zero. Subtracting a word is
  a bijection of the 32-bit words, so that comparison holds exactly when the label is the word of k·2048 + q, the
  column's number (`Cert.OneHot.weight_in_stretch`); the blocks tile the array, so the kernel's result is the same table
  (`Cert.KernelIdeal.OneHotValue.run`). No entry is a float computed from the input, the labels are compared as words on
  both sides, and no range is asked of the argument: the claim holds for every integer input.

  The ideal pass rewrote nothing in the kernel, so the idealized kernel is the kernel's own text read over the extended
  reals and that conjunct is `True`.
-/
import proofs.«174391_j32890859552772_2_alg».proof.Defs
import proofs.«174391_j32890859552772_2_alg».proof.Proof.KernelFrameP
import proofs.«174391_j32890859552772_2_alg».proof.Proof.KernelIdealFrameP
import proofs.«174391_j32890859552772_2_alg».proof.Proof.RefRunP
import proofs.«174391_j32890859552772_2_alg».proof.Proof.RefReadP
import proofs.«174391_j32890859552772_2_alg».proof.Proof.Spec
import proofs.«174391_j32890859552772_2_alg».proof.Proof.KernelValue
import proofs.«174391_j32890859552772_2_alg».proof.Proof.KernelHost
import proofs.«174391_j32890859552772_2_alg».proof.Proof.RefValue
import Idealize.ShloMosaic.Adequacy
import Idealize.ShloMosaic.Init

noncomputable section

namespace Cert.Proof

open Idealize.ShloMosaic Idealize.SL.Sem

/-- The word-level kernel runs, faults nowhere and leaves its argument as launched. -/
theorem frame_k : Cert.frame_Kernel := fun m ρ _ => Cert.Kernel.GenP.frame m ρ

/-- So does the kernel read over the extended reals. -/
theorem frame_ki : Cert.frame_KernelIdeal := fun m ρ _ => Cert.KernelIdeal.GenP.frame m ρ

/-- The reference is a list of host operations: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the argument both programs end with the one-hot table of the same labels. -/
theorem algebraic : Cert.algebraic_KernelIdeal_ReferenceIdeal := by
  intro m ρ m' ρ' _ hagree
  refine ⟨fun c => Cert.OneHot.table (Cert.KernelIdeal.OneHotValue.labels m c), Cert.KernelIdeal.OneHotValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v63_eq, Cert.ReferenceIdeal.OneHotRef.result_eq, hagree c]
  refine congrArg Cert.OneHot.table (funext fun r => ?_)
  exact (Cert.KernelIdeal.OneHotHost.column_apply (F := Ideal) m c r).symm

theorem claim : Cert.Claim := ⟨Cert.Kernel.Gen.facts, Cert.KernelIdeal.Gen.facts, Cert.ReferenceIdeal.Gen.facts,
  frame_k, frame_ki, frame_ri, trivial, algebraic⟩

end Cert.Proof

end
